-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S1024x64 : Shape := ⟨2, ![1024, 64]⟩
abbrev S1024x1024 : Shape := ⟨2, ![1024, 1024]⟩
abbrev S1024x10 : Shape := ⟨2, ![1024, 10]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x10 : S_.BroadcastsInDim S1024x10 (![] : Fin 0 → Fin S1024x10.rank)
  reducesTo_S1024x10_S_d0_1 : S1024x10.ReducesTo [0, 1] S_

variable [Facts]

def fn_part2 {F : FTy → Type} [FloatOps F] (main_arg7 : FVec F S1024x1024 .f32) (main_arg8 : FVec F S1024x1024 .f32) (main_arg9 : FVec F S1024x10 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x10 .f32 := Host.absf main_arg9
  let main_cst_16 : FVec F S_ .f32 := constant S_ .f32 0x7F800000#32
  let main_v45 : FVec F S1024x10 .f32 := broadcastInDim S1024x10 ![] bcast_S_S1024x10 main_cst_16
  let main_v46 : IVec S1024x10 1 := cmpf .olt main_v44 main_v45
  let main_c_17 : IVec S_ 1 := constantI S_ 1 1#1
  let main_v47 : IVec S_ 1 := (fun x v => Host.reduce IntOp.andi x v reducesTo_S1024x10_S_d0_1 h_S_) main_v46 main_c_17
  let main_v48 : IVec S_ 1 := andi main_v43 main_v47
  main_v48

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x10 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x64 .f32) (main_arg1 : FVec F S1024x64 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x10 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S16384x64 : Shape := ⟨2, ![16384, 64]⟩
abbrev S1024x64 : Shape := ⟨2, ![1024, 64]⟩
abbrev S1024x1024 : Shape := ⟨2, ![1024, 1024]⟩
abbrev S1024x10 : Shape := ⟨2, ![1024, 10]⟩
abbrev S64x1024 : Shape := ⟨2, ![64, 1024]⟩
abbrev S16384x10 : Shape := ⟨2, ![16384, 10]⟩
abbrev S4096x64 : Shape := ⟨2, ![4096, 64]⟩
abbrev S4096x10 : Shape := ⟨2, ![4096, 10]⟩
abbrev S4096x1024 : Shape := ⟨2, ![4096, 1024]⟩

abbrev nBuf : Space → Nat
  | .hbm => 24
  | .vmem => 9
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x10, .f32⟩
  | .hbm, ⟨10, _⟩ => ⟨S1024x64, .f32⟩
  | .hbm, ⟨11, _⟩ => ⟨S64x1024, .f32⟩
  | .hbm, ⟨12, _⟩ => ⟨S64x1024, .bf16⟩
  | .hbm, ⟨13, _⟩ => ⟨S1024x1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S1024x10, .bf16⟩
  | .hbm, ⟨23, _⟩ => ⟨S16384x10, .f32⟩
  | .local _ .vmem, ⟨0, _⟩ => ⟨S4096x64, .f32⟩
  | .local _ .vmem, ⟨1, _⟩ => ⟨S4096x64, .f32⟩
  | .local _ .vmem, ⟨2, _⟩ => ⟨S64x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x10, .bf16⟩
  | .local _ .vmem, ⟨7, _⟩ => ⟨S4096x10, .f32⟩
  | .local _ .vmem, ⟨8, _⟩ => ⟨S4096x10, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x10 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1024x64_S64x1024_1_0 : S1024x64.Transposes [1, 0] S64x1024
  bitsLt_bf16_f32 : FTy.bits .bf16 < FTy.bits .f32
  transposes_S1024x1024_S1024x1024_1_0 : S1024x1024.Transposes [1, 0] S1024x1024
  inb_S4096x64_S4096x64_0_0 : ∀ a, (![0, 0] : Fin 2 → Nat) a + S4096x64.size a ≤ S4096x64.size a
  h_S4096x64 : 0 < S4096x64.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S4096x10_S4096x10_0_0 : ∀ a, (![0, 0] : Fin 2 → Nat) a + S4096x10.size a ≤ S4096x10.size a
  h_S4096x10 : 0 < S4096x10.numel
  dot_S1024x1024_S1024x64_S1024x64_1_0_0_1_n_n_wf : DotDims.WF S1024x1024 S1024x64 S1024x64 [1] [0] [0] [1] [] []
  dot_S1024x1024_S1024x1024_S1024x1024_1_0_0_1_n_n_wf : DotDims.WF S1024x1024 S1024x1024 S1024x1024 [1] [0] [0] [1] [] []
  dot_S4096x64_S64x1024_S4096x1024_1_0_0_1_n_n_wf : DotDims.WF S4096x64 S64x1024 S4096x1024 [1] [0] [0] [1] [] []
  dot_S4096x1024_S1024x1024_S4096x1024_1_0_0_1_n_n_wf : DotDims.WF S4096x1024 S1024x1024 S4096x1024 [1] [0] [0] [1] [] []
  dot_S4096x1024_S1024x10_S4096x10_1_0_0_1_n_n_wf : DotDims.WF S4096x1024 S1024x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S16384x64.size a
  hwx0_0 : ∀ i : grid0.Coords, EltTy.bits .f32 = 32 ∨ (Rect.block (s := S16384x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .bf16 = 32 ∨ (Rect.block (s := S64x1024) S64x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x10.size a ≤ S1024x10.size a
  hwx0_5 : ∀ i : grid0.Coords, EltTy.bits .bf16 = 32 ∨ (Rect.block (s := S1024x10) S1024x10.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x10.size a ≤ S16384x10.size a
  hwx0_6 : ∀ i : grid0.Coords, EltTy.bits .f32 = 32 ∨ (Rect.block (s := S16384x10) S4096x10.size (cc0_transform_6 i) (hinb0_6 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S4096x64_S64x1024_S4096x1024_1_0_0_1_n_n : DotDims S4096x64 S64x1024 S4096x1024 where
  lhsContracting := [1]
  rhsContracting := [0]
  lhsNonContracting := [0]
  rhsNonContracting := [1]
  lhsBatch := []
  rhsBatch := []
  wf := dot_S4096x64_S64x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x10_S4096x10_1_0_0_1_n_n : DotDims S4096x1024 S1024x10 S4096x10 where
  lhsContracting := [1]
  rhsContracting := [0]
  lhsNonContracting := [0]
  rhsNonContracting := [1]
  lhsBatch := []
  rhsBatch := []
  wf := dot_S4096x1024_S1024x10_S4096x10_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S4096x10.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x64 : Shape := ⟨2, ![16384, 64]⟩
abbrev S1024x64 : Shape := ⟨2, ![1024, 64]⟩
abbrev S1024x1024 : Shape := ⟨2, ![1024, 1024]⟩
abbrev S1024x10 : Shape := ⟨2, ![1024, 10]⟩
abbrev S16384x1024 : Shape := ⟨2, ![16384, 1024]⟩
abbrev S_ : Shape := ⟨0, ![]⟩
abbrev S16384x10 : Shape := ⟨2, ![16384, 10]⟩

abbrev nBuf : Space → Nat
  | .hbm => 34
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x10, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x10, .f32⟩
  | .hbm, ⟨31, _⟩ => ⟨S_, .f32⟩
  | .hbm, ⟨32, _⟩ => ⟨S16384x10, .f32⟩
  | .hbm, ⟨33, _⟩ => ⟨S16384x10, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_cst : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call2_cst : Ref sig .tc := ⟨.hbm, 22, rfl⟩
abbrev main_call2_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call3_cst : Ref sig .tc := ⟨.hbm, 27, rfl⟩
abbrev main_call3_v0 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]

class Facts₀ : Prop where
  bcast_S_S16384x1024 : S_.BroadcastsInDim S16384x1024 (![] : Fin 0 → Fin S16384x1024.rank)
  bcast_S_S16384x10 : S_.BroadcastsInDim S16384x10 (![] : Fin 0 → Fin S16384x10.rank)
  dot_S16384x64_S1024x64_S16384x1024_1_1_0_0_n_n_wf : DotDims.WF S16384x64 S1024x64 S16384x1024 [1] [1] [0] [0] [] []
  dot_S16384x1024_S1024x1024_S16384x1024_1_1_0_0_n_n_wf : DotDims.WF S16384x1024 S1024x1024 S16384x1024 [1] [1] [0] [0] [] []
  dot_S16384x1024_S1024x10_S16384x10_1_0_0_1_n_n_wf : DotDims.WF S16384x1024 S1024x10 S16384x10 [1] [0] [0] [1] [] []

variable [Facts₀]

def dot_S16384x64_S1024x64_S16384x1024_1_1_0_0_n_n : DotDims S16384x64 S1024x64 S16384x1024 where
  lhsContracting := [1]
  rhsContracting := [1]
  lhsNonContracting := [0]
  rhsNonContracting := [0]
  lhsBatch := []
  rhsBatch := []
  wf := dot_S16384x64_S1024x64_S16384x1024_1_1_0_0_n_n_wf
def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf
def dot_S16384x1024_S1024x10_S16384x10_1_0_0_1_n_n : DotDims S16384x1024 S1024x10 S16384x10 where
  lhsContracting := [1]
  rhsContracting := [0]
  lhsNonContracting := [0]
  rhsNonContracting := [1]
  lhsBatch := []
  rhsBatch := []
  wf := dot_S16384x1024_S1024x10_S16384x10_1_0_0_1_n_n_wf

class Facts : Prop extends Facts₀ where

variable [Facts]
-- ==== Proof.LibDenseLayers.lean ====
/-
  Dense layers over the extended reals, as functions of two `Fin` coordinates.

  A layer of the network multiplies a batch of rows `Y` by the transpose of a projection `rp`, then by the
  transpose of a mixing matrix `w`, and clamps at zero:
      layer Y rp w b h = max (∑ j, (∑ k, Y b k · rp j k) · w h j) 0.
  The same layer with the two matrices multiplied FIRST, `fuse rp w k h = ∑ j, w h j · rp j k`, is one
  product followed by the clamp:
      step Y (fuse rp w) b h = max (∑ k, Y b k · ∑ j, w h j · rp j k) 0.
  Passing from one to the other distributes a factor over a sum and exchanges two finite sums. On the
  extended reals distributivity fails at the infinities, so the law is proved for matrices whose entries are
  all real numbers (`Real2`): there both sides are the image of one real number, and the identity is
  `Finset.mul_sum`, `Finset.sum_mul`, `Finset.sum_comm` and commutativity in ℝ. A layer of real matrices is
  again real, so the law chains through any number of layers.

  The head of the network is a last product followed by a scale; multiplying by the real `1 / d` and dividing
  by the real `d ≠ 0` agree on EVERY extended real (`Ideal.div_coe`), so no finiteness is needed there.
-/
import Idealize.ShloMosaic.PureOps.Ideal

noncomputable section

namespace Cert.DenseLayers

open Idealize.ShloMosaic

/-- The image in the extended reals of a finite sum of reals is the sum of the images. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

variable {B K J H O : ℕ}

/-- One product with a matrix stored contraction-axis first, clamped at zero. -/
def step (Y : Fin B → Fin K → EReal) (Mt : Fin K → Fin H → EReal) : Fin B → Fin H → EReal :=
  fun b h => max (∑ k, Y b k * Mt k h) 0

/-- The transpose of the product `w · rp`: entry `(k, h)` is `∑ j, w h j · rp j k`. -/
def fuse (rp : Fin J → Fin K → EReal) (w : Fin H → Fin J → EReal) : Fin K → Fin H → EReal :=
  fun k h => ∑ j, w h j * rp j k

/-- The layer as two products: first with `rpᵀ`, then with `wᵀ`, clamped at zero. -/
def layer (Y : Fin B → Fin K → EReal) (rp : Fin J → Fin K → EReal) (w : Fin H → Fin J → EReal) :
    Fin B → Fin H → EReal :=
  fun b h => max (∑ j, (∑ k, Y b k * rp j k) * w h j) 0

/-- Every entry is (the image of) a real number. -/
def Real2 {m n : ℕ} (Y : Fin m → Fin n → EReal) : Prop :=
  ∃ Y' : Fin m → Fin n → ℝ, Y = fun a b => (Y' a b : EReal)

/-- Entries that are neither infinity are real. -/
theorem real2_of_ne {m n : ℕ} (Y : Fin m → Fin n → EReal) (h : ∀ a b, Y a b ≠ ⊤ ∧ Y a b ≠ ⊥) : Real2 Y :=
  ⟨fun a b => (Y a b).toReal, funext fun a => funext fun b => (EReal.coe_toReal (h a b).1 (h a b).2).symm⟩

/-- On real matrices, multiplying by the fused matrix is the two products in turn. -/
theorem step_fuse_eq_layer {Y : Fin B → Fin K → EReal} {rp : Fin J → Fin K → EReal} {w : Fin H → Fin J → EReal}
    (hY : Real2 Y) (hrp : Real2 rp) (hw : Real2 w) : step Y (fuse rp w) = layer Y rp w := by
  obtain ⟨Y', rfl⟩ := hY
  obtain ⟨rp', rfl⟩ := hrp
  obtain ⟨w', rfl⟩ := hw
  funext b h
  simp only [step, fuse, layer, ← EReal.coe_mul, ← coe_sum]
  refine congrArg (fun r : ℝ => max (r : EReal) 0) ?_
  simp only [Finset.mul_sum, Finset.sum_mul]
  rw [Finset.sum_comm]
  exact Finset.sum_congr rfl fun j _ => Finset.sum_congr rfl fun k _ => by ring

/-- A layer of real matrices is real. -/
theorem layer_real {Y : Fin B → Fin K → EReal} {rp : Fin J → Fin K → EReal} {w : Fin H → Fin J → EReal}
    (hY : Real2 Y) (hrp : Real2 rp) (hw : Real2 w) : Real2 (layer Y rp w) := by
  obtain ⟨Y', rfl⟩ := hY
  obtain ⟨rp', rfl⟩ := hrp
  obtain ⟨w', rfl⟩ := hw
  refine ⟨fun b h => max (∑ j, (∑ k, Y' b k * rp' j k) * w' h j) 0, funext fun b => funext fun h => ?_⟩
  simp only [layer, ← EReal.coe_mul, ← coe_sum]
  rw [← EReal.coe_zero]
  exact (EReal.coe_strictMono.monotone.map_max).symm

/-- The head as the kernel computes it: a product, then a scale by a constant. -/
def headMul (Y : Fin B → Fin H → EReal) (beta : Fin H → Fin O → EReal) (c : EReal) : Fin B → Fin O → EReal :=
  fun b o => (∑ h, Y b h * beta h o) * c

/-- The head as the reference computes it: a product, then a division by a constant. -/
def headDiv (Y : Fin B → Fin H → EReal) (beta : Fin H → Fin O → EReal) (d : EReal) : Fin B → Fin O → EReal :=
  fun b o => Ideal.div (∑ h, Y b h * beta h o) d

/-- Scaling by `1 / d` is dividing by `d`, on every extended real, for a real `d ≠ 0`. -/
theorem headMul_eq_headDiv (Y : Fin B → Fin H → EReal) (beta : Fin H → Fin O → EReal) {d : ℝ} (hd : d ≠ 0) :
    headMul Y beta ((1 / d : ℝ) : EReal) = headDiv Y beta (d : EReal) := by
  funext b o
  simp only [headMul, headDiv]
  rw [Ideal.div_coe hd]

/-- Four layers and a head, each layer's two matrices fused: the kernel's arrangement. -/
def netFused {D : ℕ} (x : Fin B → Fin D → EReal)
    (rp0 : Fin H → Fin D → EReal) (w0 : Fin H → Fin H → EReal) (rp1 w1 rp2 w2 rp3 w3 : Fin H → Fin H → EReal)
    (beta : Fin H → Fin O → EReal) (c : EReal) : Fin B → Fin O → EReal :=
  headMul (step (step (step (step x (fuse rp0 w0)) (fuse rp1 w1)) (fuse rp2 w2)) (fuse rp3 w3)) beta c

/-- Four layers and a head, two products per layer: the reference's arrangement. -/
def netLayers {D : ℕ} (x : Fin B → Fin D → EReal)
    (rp0 : Fin H → Fin D → EReal) (w0 : Fin H → Fin H → EReal) (rp1 w1 rp2 w2 rp3 w3 : Fin H → Fin H → EReal)
    (beta : Fin H → Fin O → EReal) (d : EReal) : Fin B → Fin O → EReal :=
  headDiv (layer (layer (layer (layer x rp0 w0) rp1 w1) rp2 w2) rp3 w3) beta d

/-- On real inputs the two arrangements are one function (the head's matrix may be anything). -/
theorem netFused_eq_netLayers {D : ℕ} {x : Fin B → Fin D → EReal}
    {rp0 : Fin H → Fin D → EReal} {w0 rp1 w1 rp2 w2 rp3 w3 : Fin H → Fin H → EReal}
    (beta : Fin H → Fin O → EReal) {d : ℝ} (hd : d ≠ 0)
    (hx : Real2 x) (h0 : Real2 rp0) (g0 : Real2 w0) (h1 : Real2 rp1) (g1 : Real2 w1)
    (h2 : Real2 rp2) (g2 : Real2 w2) (h3 : Real2 rp3) (g3 : Real2 w3) :
    netFused x rp0 w0 rp1 w1 rp2 w2 rp3 w3 beta ((1 / d : ℝ) : EReal)
      = netLayers x rp0 w0 rp1 w1 rp2 w2 rp3 w3 beta (d : EReal) := by
  unfold netFused netLayers
  have r1 := layer_real hx h0 g0
  have r2 := layer_real r1 h1 g1
  have r3 := layer_real r2 h2 g2
  rw [step_fuse_eq_layer hx h0 g0, step_fuse_eq_layer r1 h1 g1, step_fuse_eq_layer r2 h2 g2,
    step_fuse_eq_layer r3 h3 g3]
  exact headMul_eq_headDiv _ beta hd

end Cert.DenseLayers

end
-- ==== Proof.LibCoordinates.lean ====
/-
  A two-axis array read as a function of its two coordinates, and back.

  An array of shape `[a, b]` is a function of an index `i` with coordinates `i 0 < a` and `i 1 < b`; the
  mathematics of matrix products is easier to state over two separate coordinates `p : Fin a`, `q : Fin b`.
  `cur` reads an array at the index built from two coordinates, `uncur` reads a two-coordinate function at an
  index's coordinates; the two are inverse to each other.
-/
import Idealize.ShloMosaic.Lib.ValueIdx

noncomputable section

namespace Cert.DenseLayers

open Idealize.ShloMosaic Idealize.ShloMosaic.ValueIdx

/-- The array as a function of its two coordinates. -/
def cur {a b : ℕ} (x : (⟨2, ![a, b]⟩ : Shape).Idx → EReal) : Fin a → Fin b → EReal :=
  fun p q => x (ix2 p q)

/-- A function of two coordinates as an array. -/
def uncur {a b : ℕ} (f : Fin a → Fin b → EReal) : (⟨2, ![a, b]⟩ : Shape).Idx → EReal :=
  fun i => f ⟨(i 0).val, idx2_lt0 i⟩ ⟨(i 1).val, idx2_lt1 i⟩

theorem cur_apply {a b : ℕ} (x : (⟨2, ![a, b]⟩ : Shape).Idx → EReal) (p : Fin a) (q : Fin b) :
    cur x p q = x (ix2 p q) := rfl

theorem uncur_ix2 {a b : ℕ} (f : Fin a → Fin b → EReal) (p : Fin a) (q : Fin b) : uncur f (ix2 p q) = f p q := rfl

theorem uncur_apply {a b : ℕ} (f : Fin a → Fin b → EReal) (i : (⟨2, ![a, b]⟩ : Shape).Idx) :
    uncur f i = f ⟨(i 0).val, idx2_lt0 i⟩ ⟨(i 1).val, idx2_lt1 i⟩ := rfl

theorem cur_uncur {a b : ℕ} (f : Fin a → Fin b → EReal) : cur (uncur f) = f := rfl

theorem uncur_cur {a b : ℕ} (x : (⟨2, ![a, b]⟩ : Shape).Idx → EReal) : uncur (cur x) = x :=
  funext fun i => congrArg x (eq_ix2 i).symm

/-- Two arrays are equal when they agree at every pair of coordinates. -/
theorem ext_ix2 {a b : ℕ} {x y : (⟨2, ![a, b]⟩ : Shape).Idx → EReal}
    (h : ∀ (p : Fin a) (q : Fin b), x (ix2 p q) = y (ix2 p q)) : x = y :=
  funext fun i => by rw [eq_ix2 i]; exact h (i 0) (i 1)

end Cert.DenseLayers

end
-- ==== Proof.Constants.lean ====
/-
  The two float words of the head, as the extended reals they denote.

  `0x44800000` is the f32 word of `1024 = 2¹⁰` (the reference's divisor) and `0x3A800000` the f32 word of
  `2⁻¹⁰ = 1 / 1024` (the kernel's scale): both are exact powers of two, so each word denotes its number exactly.
-/
import Idealize.ShloMosaic.PureOps.Ideal

noncomputable section

namespace Cert.DenseLayers.Constants

open Idealize.ShloMosaic

/-- `1024.0` denotes the real `1024`. -/
theorem ofBits_1024 : Ideal.ofBits .f32 0x44800000#32 = ((1024 : ℝ) : EReal) := by
  simp [Ideal.ofBits, Ideal.ieee, -EReal.coe_mul]; norm_num

/-- `9.765625e-4` denotes the real `1 / 1024`. -/
theorem ofBits_inv_1024 : Ideal.ofBits .f32 0x3A800000#32 = ((1 / 1024 : ℝ) : EReal) := by
  simp [Ideal.ofBits, Ideal.ieee, -EReal.coe_mul]; norm_num

end Cert.DenseLayers.Constants

end
-- ==== Proof.FiniteInputs.lean ====
/-
  The precondition says every entry of every argument array is a real number.

  The printed precondition is the conjunction, over the ten argument arrays, of `jnp.all (|a| < +inf)`: the
  absolute value of each entry compared with the float word of `+∞`, all comparisons of one array reduced by
  `and`, the ten results combined by `and`. At the ideal values `|x| = max x (-x)`, the word `0x7F800000`
  denotes `⊤`, and `max x (-x) < ⊤` holds exactly when `x` is neither `⊤` nor `⊥`. A conjunction that is the
  bit 1 has both conjuncts 1, and a reduction by `and` that is 1 met a 1 at every index.
-/
import proofs.«111098_j36756330120126_2_alg».proof.Proof.Gen.Pre_finite_inputs
import Idealize.ShloMosaic.Lib.ValueIdx
import Idealize.ShloMosaic.Lib.Pipeline.Value
import Idealize.ShloMosaic.Lib.ReduceAll
import Idealize.ShloMosaic.PureOps.Ideal.Laws

noncomputable section

namespace Cert.Pre_finite_inputs.Finite

open Cert.Pre_finite_inputs
open Idealize.ShloMosaic Idealize.ShloMosaic.ValueIdx

instance : Subsingleton S_.Idx := ⟨fun _ _ => funext fun d => d.elim0⟩

/-- The float word of `+∞` denotes `⊤`. -/
theorem ofBits_inf : Ideal.ofBits .f32 0x7F800000#32 = ⊤ := by
  simp [Ideal.ofBits, Ideal.ieee]

/-- An extended real whose absolute value compares below `⊤` is neither infinity. -/
theorem ne_of_cmp {x : EReal} (h : Ideal.cmp .olt (max x (-x)) ⊤ = 1#1) : x ≠ ⊤ ∧ x ≠ ⊥ := by
  have hlt : max x (-x) < ⊤ := by
    by_contra hn
    simp [Ideal.cmp, hn] at h
  rw [max_lt_iff] at hlt
  refine ⟨ne_of_lt hlt.1, fun hb => ?_⟩
  rw [hb] at hlt
  simp at hlt

/-- A conjunction of two `i1` scalars that is 1 has both conjuncts 1. -/
theorem andi_split {x y : IVec S_ 1} (h : andi x y ix0 = 1#1) : x ix0 = 1#1 ∧ y ix0 = 1#1 :=
  IntOp.andi_eq_one.1 h

/-- `jnp.all (|a| < +inf)` of a two-axis array says every entry is real. -/
theorem real_of_all {n0 n1 : ℕ} (a : FVec Ideal ⟨2, ![n0, n1]⟩ .f32)
    (hb : S_.BroadcastsInDim ⟨2, ![n0, n1]⟩ (![] : Fin 0 → Fin 2))
    (hr : Shape.ReducesTo (⟨2, ![n0, n1]⟩ : Shape) [0, 1] S_) (hu : 0 < S_.numel)
    (h : Host.reduce IntOp.andi (cmpf .olt (Host.absf a) (broadcastInDim ⟨2, ![n0, n1]⟩ ![] hb (constant S_ .f32 0x7F800000#32)))
      (constantI S_ 1 1#1) hr hu ix0 = 1#1) (i : (⟨2, ![n0, n1]⟩ : Shape).Idx) : a i ≠ ⊤ ∧ a i ≠ ⊥ := by
  have e := Host.reduce_andi_all _ _ hr hu ix0 h i
  rw [cmpf_apply, broadcastInDim_apply _ hb _ i ix0 (fun d => d.elim0), constant_apply, ofBits_inf] at e
  exact ne_of_cmp e

variable [Cert.Pre_finite_inputs.Facts]

/-- The printed precondition, unfolded: every entry of each of the ten arrays is real. -/
theorem real_of_pre (a0 : FVec Ideal S16384x64 .f32) (a1 : FVec Ideal S1024x64 .f32)
    (a2 a3 a4 a5 a6 a7 a8 : FVec Ideal S1024x1024 .f32) (a9 : FVec Ideal S1024x10 .f32)
    (h : Cert.Pre_finite_inputs.fn (F := Ideal) a0 a1 a2 a3 a4 a5 a6 a7 a8 a9 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) ∧ (∀ i, a3 i ≠ ⊤ ∧ a3 i ≠ ⊥)
    ∧ (∀ i, a4 i ≠ ⊤ ∧ a4 i ≠ ⊥) ∧ (∀ i, a5 i ≠ ⊤ ∧ a5 i ≠ ⊥) ∧ (∀ i, a6 i ≠ ⊤ ∧ a6 i ≠ ⊥) ∧ (∀ i, a7 i ≠ ⊤ ∧ a7 i ≠ ⊥)
    ∧ (∀ i, a8 i ≠ ⊤ ∧ a8 i ≠ ⊥) ∧ (∀ i, a9 i ≠ ⊤ ∧ a9 i ≠ ⊥) := by
  have h0 := congrFun h ix0
  dsimp only [Cert.Pre_finite_inputs.fn, Cert.Pre_finite_inputs.fn_part1, Cert.Pre_finite_inputs.fn_part2] at h0
  obtain ⟨h0, e9⟩ := andi_split h0
  obtain ⟨h0, e8⟩ := andi_split h0
  obtain ⟨h0, e7⟩ := andi_split h0
  obtain ⟨h0, e6⟩ := andi_split h0
  obtain ⟨h0, e5⟩ := andi_split h0
  obtain ⟨h0, e4⟩ := andi_split h0
  obtain ⟨h0, e3⟩ := andi_split h0
  obtain ⟨h0, e2⟩ := andi_split h0
  obtain ⟨e0, e1⟩ := andi_split h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7,
    real_of_all a8 _ _ _ e8, real_of_all a9 _ _ _ e9⟩

end Cert.Pre_finite_inputs.Finite

end
-- ==== Proof.ReferenceValue.lean ====
/-
  The reference's result, index by index, is the layered network.

  The reference program is nine matrix products, four clamps at zero and a division by 1024. Read one
  operation at a time (the generated read-at-an-index lemmas), its result at row `b` and column `o` is
      (∑ h, y₄ b h · beta h o) / 1024,
  where `y₀ = x` and `y_{l+1} b h = max (∑ j, (∑ k, y_l b k · rp_l j k) · w_l h j) 0`: each layer is the two
  products in turn. That is `netLayers` of the argument arrays read as functions of two coordinates. The only
  work is naming the operand indices of each product: at output `(b, j)` and contraction index `k` a product
  contracting the second axes of both operands reads `(b, k)` and `(j, k)`; the head's product reads `(b, k)`
  and `(k, o)`.
-/
import proofs.«111098_j36756330120126_2_alg».proof.Proof.Gen.ReferenceIdeal.Read
import proofs.«111098_j36756330120126_2_alg».proof.Proof.LibDenseLayers
import proofs.«111098_j36756330120126_2_alg».proof.Proof.LibCoordinates

noncomputable section

namespace Cert.ReferenceIdeal.RefValue

open Cert.ReferenceIdeal Cert.ReferenceIdeal.Gen Cert.ReferenceIdeal.Read Cert.DenseLayers
open Idealize.ShloMosaic Idealize.ShloMosaic.ValueIdx

/-! ## The operand indices of each product, at coordinates -/

theorem lidx_v0 (b : Fin 16384) (j : Fin 1024) (k : Fin 64) : lidx_main_v0 (ix2 b j) k = ix2 b k :=
  funext fun d => Fin.ext (by match d with | ⟨0, _⟩ => rfl | ⟨1, _⟩ => rfl)
theorem ridx_v0 (b : Fin 16384) (j : Fin 1024) (k : Fin 64) : ridx_main_v0 (ix2 b j) k = ix2 j k :=
  funext fun d => Fin.ext (by match d with | ⟨0, _⟩ => rfl | ⟨1, _⟩ => rfl)
theorem lidx_v1 (b : Fin 16384) (h : Fin 1024) (k : Fin 1024) : lidx_main_v1 (ix2 b h) k = ix2 b k :=
  funext fun d => Fin.ext (by match d with | ⟨0, _⟩ => rfl | ⟨1, _⟩ => rfl)
theorem ridx_v1 (b : Fin 16384) (h : Fin 1024) (k : Fin 1024) : ridx_main_v1 (ix2 b h) k = ix2 h k :=
  funext fun d => Fin.ext (by match d with | ⟨0, _⟩ => rfl | ⟨1, _⟩ => rfl)
theorem lidx_v3 (b : Fin 16384) (h : Fin 1024) (k : Fin 1024) : lidx_main_v3 (ix2 b h) k = ix2 b k :=
  funext fun d => Fin.ext (by match d with | ⟨0, _⟩ => rfl | ⟨1, _⟩ => rfl)
theorem ridx_v3 (b : Fin 16384) (h : Fin 1024) (k : Fin 1024) : ridx_main_v3 (ix2 b h) k = ix2 h k :=
  funext fun d => Fin.ext (by match d with | ⟨0, _⟩ => rfl | ⟨1, _⟩ => rfl)
theorem lidx_v4 (b : Fin 16384) (h : Fin 1024) (k : Fin 1024) : lidx_main_v4 (ix2 b h) k = ix2 b k :=
  funext fun d => Fin.ext (by match d with | ⟨0, _⟩ => rfl | ⟨1, _⟩ => rfl)
theorem ridx_v4 (b : Fin 16384) (h : Fin 1024) (k : Fin 1024) : ridx_main_v4 (ix2 b h) k = ix2 h k :=
  funext fun d => Fin.ext (by match d with | ⟨0, _⟩ => rfl | ⟨1, _⟩ => rfl)
theorem lidx_v6 (b : Fin 16384) (h : Fin 1024) (k : Fin 1024) : lidx_main_v6 (ix2 b h) k = ix2 b k :=
  funext fun d => Fin.ext (by match d with | ⟨0, _⟩ => rfl | ⟨1, _⟩ => rfl)
theorem ridx_v6 (b : Fin 16384) (h : Fin 1024) (k : Fin 1024) : ridx_main_v6 (ix2 b h) k = ix2 h k :=
  funext fun d => Fin.ext (by match d with | ⟨0, _⟩ => rfl | ⟨1, _⟩ => rfl)
theorem lidx_v7 (b : Fin 16384) (h : Fin 1024) (k : Fin 1024) : lidx_main_v7 (ix2 b h) k = ix2 b k :=
  funext fun d => Fin.ext (by match d with | ⟨0, _⟩ => rfl | ⟨1, _⟩ => rfl)
theorem ridx_v7 (b : Fin 16384) (h : Fin 1024) (k : Fin 1024) : ridx_main_v7 (ix2 b h) k = ix2 h k :=
  funext fun d => Fin.ext (by match d with | ⟨0, _⟩ => rfl | ⟨1, _⟩ => rfl)
theorem lidx_v9 (b : Fin 16384) (h : Fin 1024) (k : Fin 1024) : lidx_main_v9 (ix2 b h) k = ix2 b k :=
  funext fun d => Fin.ext (by match d with | ⟨0, _⟩ => rfl | ⟨1, _⟩ => rfl)
theorem ridx_v9 (b : Fin 16384) (h : Fin 1024) (k : Fin 1024) : ridx_main_v9 (ix2 b h) k = ix2 h k :=
  funext fun d => Fin.ext (by match d with | ⟨0, _⟩ => rfl | ⟨1, _⟩ => rfl)
theorem lidx_v10 (b : Fin 16384) (h : Fin 1024) (k : Fin 1024) : lidx_main_v10 (ix2 b h) k = ix2 b k :=
  funext fun d => Fin.ext (by match d with | ⟨0, _⟩ => rfl | ⟨1, _⟩ => rfl)
theorem ridx_v10 (b : Fin 16384) (h : Fin 1024) (k : Fin 1024) : ridx_main_v10 (ix2 b h) k = ix2 h k :=
  funext fun d => Fin.ext (by match d with | ⟨0, _⟩ => rfl | ⟨1, _⟩ => rfl)
theorem lidx_v12 (b : Fin 16384) (o : Fin 10) (k : Fin 1024) : lidx_main_v12 (ix2 b o) k = ix2 b k :=
  funext fun d => Fin.ext (by match d with | ⟨0, _⟩ => rfl | ⟨1, _⟩ => rfl)
theorem ridx_v12 (b : Fin 16384) (o : Fin 10) (k : Fin 1024) : ridx_main_v12 (ix2 b o) k = ix2 k o :=
  funext fun d => Fin.ext (by match d with | ⟨0, _⟩ => rfl | ⟨1, _⟩ => rfl)

/-! ## The result -/

/-- The reference's last stage is `netLayers` of its ten arguments, with the divisor the float `1024.0`. -/
theorem result_eq (x0 : (⟨S16384x64, .f32⟩ : BufTy).Contents (Elt Ideal)) (x1 : (⟨S1024x64, .f32⟩ : BufTy).Contents (Elt Ideal))
    (x2 x3 x4 x5 x6 x7 x8 : (⟨S1024x1024, .f32⟩ : BufTy).Contents (Elt Ideal)) (x9 : (⟨S1024x10, .f32⟩ : BufTy).Contents (Elt Ideal)) :
    val_main_v14 (F := Ideal) x0 x1 x2 x3 x4 x5 x6 x7 x8 x9
      = uncur (netLayers (cur x0) (cur x1) (cur x2) (cur x3) (cur x4) (cur x5) (cur x6) (cur x7) (cur x8) (cur x9)
          (Ideal.ofBits .f32 0x44800000#32)) := by
  refine ext_ix2 fun b o => ?_
  rw [uncur_ix2]
  simp only [val_main_v14_apply, val_main_v13_apply, val_main_cst_apply, val_main_v12_apply, val_main_v11_apply, val_main_call3_v0_apply, val_main_call3_cst_apply, val_main_v10_apply, val_main_v9_apply, val_main_v8_apply, val_main_call2_v0_apply, val_main_call2_cst_apply, val_main_v7_apply, val_main_v6_apply, val_main_v5_apply, val_main_call1_v0_apply, val_main_call1_cst_apply, val_main_v4_apply, val_main_v3_apply, val_main_v2_apply, val_main_call0_v0_apply, val_main_call0_cst_apply, val_main_v1_apply, val_main_v0_apply,
    lidx_v0, ridx_v0, lidx_v1, ridx_v1, lidx_v3, ridx_v3, lidx_v4, ridx_v4, lidx_v6, ridx_v6, lidx_v7, ridx_v7, lidx_v9, ridx_v9, lidx_v10, ridx_v10, lidx_v12, ridx_v12,
    Ideal.hostDivf_def, Ideal.maximumf_def, Ideal.ofBits_def, Ideal.ofBits_zero_f32,
    netLayers, headDiv, layer, cur]

end Cert.ReferenceIdeal.RefValue

end
-- ==== Proof.Payload.lean ====
/-
  What the kernel body stores, at a row and a column of its output block.

  The body loads a block of 4096 rows of `x`, the four fused weight matrices and `beta`, and stores
      (∑ h, y₄ p h · beta h o) · 2⁻¹⁰,     y₀ = the block,   y_{l+1} p h = max (∑ k, y_l p k · Mt_l k h) 0:
  four products with a matrix stored contraction-axis first, each clamped at zero, then the head. At the ideal
  values the changes of float format are the identity and a product into the zero accumulator is the plain sum
  over the contraction coordinate; a product of a `[M, K]` by a `[K, N]` operand reads the left at `(p, k)` and
  the right at `(k, h)`. So the stored value at `(p, o)` is `headMul (step (step (step (step …))))` of the loaded
  blocks read as functions of two coordinates.
-/
import proofs.«111098_j36756330120126_2_alg».proof.Proof.Gen.KernelIdeal.Skeleton
import proofs.«111098_j36756330120126_2_alg».proof.Proof.LibDenseLayers
import proofs.«111098_j36756330120126_2_alg».proof.Proof.LibCoordinates
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Cert.DenseLayers
open Idealize.ShloMosaic Idealize.ShloMosaic.ValueIdx

/-! ## The three shapes of product in the body, read at an index -/

theorem lhsA_0 (i : S4096x1024.Idx) (q : dot_S4096x64_S64x1024_S4096x1024_1_0_0_1_n_n.contr.Idx) :
    (dot_S4096x64_S64x1024_S4096x1024_1_0_0_1_n_n.lhsIdx i q 0).val = (i 0).val := by
  unfold DotDims.lhsIdx
  rw [dif_neg (show ¬(0 : Fin S4096x64.rank) ∈ dot_S4096x64_S64x1024_S4096x1024_1_0_0_1_n_n.lhsBatch by decide), dif_pos (show (0 : Fin S4096x64.rank) ∈ dot_S4096x64_S64x1024_S4096x1024_1_0_0_1_n_n.lhsNonContracting by decide)]
  rfl
theorem lhsA_1 (i : S4096x1024.Idx) (q : dot_S4096x64_S64x1024_S4096x1024_1_0_0_1_n_n.contr.Idx) :
    (dot_S4096x64_S64x1024_S4096x1024_1_0_0_1_n_n.lhsIdx i q 1).val = (q ⟨0, by decide⟩).val :=
  dot_S4096x64_S64x1024_S4096x1024_1_0_0_1_n_n.lhsIdx_val_of_single rfl i q
theorem rhsA_0 (i : S4096x1024.Idx) (q : dot_S4096x64_S64x1024_S4096x1024_1_0_0_1_n_n.contr.Idx) :
    (dot_S4096x64_S64x1024_S4096x1024_1_0_0_1_n_n.rhsIdx i q 0).val = (q ⟨0, by decide⟩).val :=
  dot_S4096x64_S64x1024_S4096x1024_1_0_0_1_n_n.rhsIdx_val_of_single rfl i q
theorem rhsA_1 (i : S4096x1024.Idx) (q : dot_S4096x64_S64x1024_S4096x1024_1_0_0_1_n_n.contr.Idx) :
    (dot_S4096x64_S64x1024_S4096x1024_1_0_0_1_n_n.rhsIdx i q 1).val = (i 1).val := by
  unfold DotDims.rhsIdx
  rw [dif_neg (show ¬(1 : Fin S64x1024.rank) ∈ dot_S4096x64_S64x1024_S4096x1024_1_0_0_1_n_n.rhsBatch by decide), dif_pos (show (1 : Fin S64x1024.rank) ∈ dot_S4096x64_S64x1024_S4096x1024_1_0_0_1_n_n.rhsNonContracting by decide)]
  rfl

/-- A `[4096, 64] · [64, 1024]` product into the zero accumulator, at row `p` and column `h`: the sum over the
    contraction coordinate of the left operand at `(p, k)` times the right at `(k, h)`. -/
theorem matmulA_apply (a : FVec Ideal S4096x64 .bf16) (b : FVec Ideal S64x1024 .bf16) (p : Fin 4096) (h : Fin 1024) :
    matmul dot_S4096x64_S64x1024_S4096x1024_1_0_0_1_n_n none a b (constant S4096x1024 .f32 0x00000000#32) (ix2 p h)
      = ∑ k : Fin 64, a (ix2 p k) * b (ix2 k h) := by
  simp only [matmul]
  rw [Ideal.matmul_constant_zero_apply, ← Equiv.sum_comp (contrEquiv1 dot_S4096x64_S64x1024_S4096x1024_1_0_0_1_n_n 64 rfl rfl).symm]
  refine Finset.sum_congr rfl fun k _ => ?_
  have hk := contrEquiv1_symm_val dot_S4096x64_S64x1024_S4096x1024_1_0_0_1_n_n 64 rfl rfl k
  have el : dot_S4096x64_S64x1024_S4096x1024_1_0_0_1_n_n.lhsIdx (ix2 p h) ((contrEquiv1 dot_S4096x64_S64x1024_S4096x1024_1_0_0_1_n_n 64 rfl rfl).symm k) = ix2 p k := funext fun e => Fin.ext (by
    match e with
    | ⟨0, _⟩ => exact lhsA_0 _ _
    | ⟨1, _⟩ => exact (lhsA_1 _ _).trans hk)
  have er : dot_S4096x64_S64x1024_S4096x1024_1_0_0_1_n_n.rhsIdx (ix2 p h) ((contrEquiv1 dot_S4096x64_S64x1024_S4096x1024_1_0_0_1_n_n 64 rfl rfl).symm k) = ix2 k h := funext fun e => Fin.ext (by
    match e with
    | ⟨0, _⟩ => exact (rhsA_0 _ _).trans hk
    | ⟨1, _⟩ => exact rhsA_1 _ _)
  rw [el, er]

theorem lhsB_0 (i : S4096x1024.Idx) (q : dot_S4096x1024_S1024x1024_S4096x1024_1_0_0_1_n_n.contr.Idx) :
    (dot_S4096x1024_S1024x1024_S4096x1024_1_0_0_1_n_n.lhsIdx i q 0).val = (i 0).val := by
  unfold DotDims.lhsIdx
  rw [dif_neg (show ¬(0 : Fin S4096x1024.rank) ∈ dot_S4096x1024_S1024x1024_S4096x1024_1_0_0_1_n_n.lhsBatch by decide), dif_pos (show (0 : Fin S4096x1024.rank) ∈ dot_S4096x1024_S1024x1024_S4096x1024_1_0_0_1_n_n.lhsNonContracting by decide)]
  rfl
theorem lhsB_1 (i : S4096x1024.Idx) (q : dot_S4096x1024_S1024x1024_S4096x1024_1_0_0_1_n_n.contr.Idx) :
    (dot_S4096x1024_S1024x1024_S4096x1024_1_0_0_1_n_n.lhsIdx i q 1).val = (q ⟨0, by decide⟩).val :=
  dot_S4096x1024_S1024x1024_S4096x1024_1_0_0_1_n_n.lhsIdx_val_of_single rfl i q
theorem rhsB_0 (i : S4096x1024.Idx) (q : dot_S4096x1024_S1024x1024_S4096x1024_1_0_0_1_n_n.contr.Idx) :
    (dot_S4096x1024_S1024x1024_S4096x1024_1_0_0_1_n_n.rhsIdx i q 0).val = (q ⟨0, by decide⟩).val :=
  dot_S4096x1024_S1024x1024_S4096x1024_1_0_0_1_n_n.rhsIdx_val_of_single rfl i q
theorem rhsB_1 (i : S4096x1024.Idx) (q : dot_S4096x1024_S1024x1024_S4096x1024_1_0_0_1_n_n.contr.Idx) :
    (dot_S4096x1024_S1024x1024_S4096x1024_1_0_0_1_n_n.rhsIdx i q 1).val = (i 1).val := by
  unfold DotDims.rhsIdx
  rw [dif_neg (show ¬(1 : Fin S1024x1024.rank) ∈ dot_S4096x1024_S1024x1024_S4096x1024_1_0_0_1_n_n.rhsBatch by decide), dif_pos (show (1 : Fin S1024x1024.rank) ∈ dot_S4096x1024_S1024x1024_S4096x1024_1_0_0_1_n_n.rhsNonContracting by decide)]
  rfl

/-- A `[4096, 1024] · [1024, 1024]` product into the zero accumulator, at row `p` and column `h`: the sum over the
    contraction coordinate of the left operand at `(p, k)` times the right at `(k, h)`. -/
theorem matmulB_apply (a : FVec Ideal S4096x1024 .bf16) (b : FVec Ideal S1024x1024 .bf16) (p : Fin 4096) (h : Fin 1024) :
    matmul dot_S4096x1024_S1024x1024_S4096x1024_1_0_0_1_n_n none a b (constant S4096x1024 .f32 0x00000000#32) (ix2 p h)
      = ∑ k : Fin 1024, a (ix2 p k) * b (ix2 k h) := by
  simp only [matmul]
  rw [Ideal.matmul_constant_zero_apply, ← Equiv.sum_comp (contrEquiv1 dot_S4096x1024_S1024x1024_S4096x1024_1_0_0_1_n_n 1024 rfl rfl).symm]
  refine Finset.sum_congr rfl fun k _ => ?_
  have hk := contrEquiv1_symm_val dot_S4096x1024_S1024x1024_S4096x1024_1_0_0_1_n_n 1024 rfl rfl k
  have el : dot_S4096x1024_S1024x1024_S4096x1024_1_0_0_1_n_n.lhsIdx (ix2 p h) ((contrEquiv1 dot_S4096x1024_S1024x1024_S4096x1024_1_0_0_1_n_n 1024 rfl rfl).symm k) = ix2 p k := funext fun e => Fin.ext (by
    match e with
    | ⟨0, _⟩ => exact lhsB_0 _ _
    | ⟨1, _⟩ => exact (lhsB_1 _ _).trans hk)
  have er : dot_S4096x1024_S1024x1024_S4096x1024_1_0_0_1_n_n.rhsIdx (ix2 p h) ((contrEquiv1 dot_S4096x1024_S1024x1024_S4096x1024_1_0_0_1_n_n 1024 rfl rfl).symm k) = ix2 k h := funext fun e => Fin.ext (by
    match e with
    | ⟨0, _⟩ => exact (rhsB_0 _ _).trans hk
    | ⟨1, _⟩ => exact rhsB_1 _ _)
  rw [el, er]

theorem lhsC_0 (i : S4096x10.Idx) (q : dot_S4096x1024_S1024x10_S4096x10_1_0_0_1_n_n.contr.Idx) :
    (dot_S4096x1024_S1024x10_S4096x10_1_0_0_1_n_n.lhsIdx i q 0).val = (i 0).val := by
  unfold DotDims.lhsIdx
  rw [dif_neg (show ¬(0 : Fin S4096x1024.rank) ∈ dot_S4096x1024_S1024x10_S4096x10_1_0_0_1_n_n.lhsBatch by decide), dif_pos (show (0 : Fin S4096x1024.rank) ∈ dot_S4096x1024_S1024x10_S4096x10_1_0_0_1_n_n.lhsNonContracting by decide)]
  rfl
theorem lhsC_1 (i : S4096x10.Idx) (q : dot_S4096x1024_S1024x10_S4096x10_1_0_0_1_n_n.contr.Idx) :
    (dot_S4096x1024_S1024x10_S4096x10_1_0_0_1_n_n.lhsIdx i q 1).val = (q ⟨0, by decide⟩).val :=
  dot_S4096x1024_S1024x10_S4096x10_1_0_0_1_n_n.lhsIdx_val_of_single rfl i q
theorem rhsC_0 (i : S4096x10.Idx) (q : dot_S4096x1024_S1024x10_S4096x10_1_0_0_1_n_n.contr.Idx) :
    (dot_S4096x1024_S1024x10_S4096x10_1_0_0_1_n_n.rhsIdx i q 0).val = (q ⟨0, by decide⟩).val :=
  dot_S4096x1024_S1024x10_S4096x10_1_0_0_1_n_n.rhsIdx_val_of_single rfl i q
theorem rhsC_1 (i : S4096x10.Idx) (q : dot_S4096x1024_S1024x10_S4096x10_1_0_0_1_n_n.contr.Idx) :
    (dot_S4096x1024_S1024x10_S4096x10_1_0_0_1_n_n.rhsIdx i q 1).val = (i 1).val := by
  unfold DotDims.rhsIdx
  rw [dif_neg (show ¬(1 : Fin S1024x10.rank) ∈ dot_S4096x1024_S1024x10_S4096x10_1_0_0_1_n_n.rhsBatch by decide), dif_pos (show (1 : Fin S1024x10.rank) ∈ dot_S4096x1024_S1024x10_S4096x10_1_0_0_1_n_n.rhsNonContracting by decide)]
  rfl

/-- A `[4096, 1024] · [1024, 10]` product into the zero accumulator, at row `p` and column `h`: the sum over the
    contraction coordinate of the left operand at `(p, k)` times the right at `(k, h)`. -/
theorem matmulC_apply (a : FVec Ideal S4096x1024 .bf16) (b : FVec Ideal S1024x10 .bf16) (p : Fin 4096) (h : Fin 10) :
    matmul dot_S4096x1024_S1024x10_S4096x10_1_0_0_1_n_n none a b (constant S4096x10 .f32 0x00000000#32) (ix2 p h)
      = ∑ k : Fin 1024, a (ix2 p k) * b (ix2 k h) := by
  simp only [matmul]
  rw [Ideal.matmul_constant_zero_apply, ← Equiv.sum_comp (contrEquiv1 dot_S4096x1024_S1024x10_S4096x10_1_0_0_1_n_n 1024 rfl rfl).symm]
  refine Finset.sum_congr rfl fun k _ => ?_
  have hk := contrEquiv1_symm_val dot_S4096x1024_S1024x10_S4096x10_1_0_0_1_n_n 1024 rfl rfl k
  have el : dot_S4096x1024_S1024x10_S4096x10_1_0_0_1_n_n.lhsIdx (ix2 p h) ((contrEquiv1 dot_S4096x1024_S1024x10_S4096x10_1_0_0_1_n_n 1024 rfl rfl).symm k) = ix2 p k := funext fun e => Fin.ext (by
    match e with
    | ⟨0, _⟩ => exact lhsC_0 _ _
    | ⟨1, _⟩ => exact (lhsC_1 _ _).trans hk)
  have er : dot_S4096x1024_S1024x10_S4096x10_1_0_0_1_n_n.rhsIdx (ix2 p h) ((contrEquiv1 dot_S4096x1024_S1024x10_S4096x10_1_0_0_1_n_n 1024 rfl rfl).symm k) = ix2 k h := funext fun e => Fin.ext (by
    match e with
    | ⟨0, _⟩ => exact (rhsC_0 _ _).trans hk
    | ⟨1, _⟩ => exact rhsC_1 _ _)
  rw [el, er]

/-! ## The stored value -/

/-- The body's stored value at row `p`, column `o` of the output block, from the loaded blocks. -/
theorem payload_apply (x0 : FVec Ideal S4096x64 .f32) (x1 : FVec Ideal S64x1024 .bf16)
    (x2 x3 x4 : FVec Ideal S1024x1024 .bf16) (x5 : FVec Ideal S1024x10 .bf16) (p : Fin 4096) (o : Fin 10) :
    k0_pay1 (F := Ideal) x0 x1 x2 x3 x4 x5 (ix2 p o)
      = headMul (step (step (step (step (cur x0) (cur x1)) (cur x2)) (cur x3)) (cur x4)) (cur x5)
          (Ideal.ofBits .f32 0x3A800000#32) p o := by
  unfold k0_pay1
  simp only [mulf_apply, broadcast_apply, matmulC_apply, truncf_apply, maximumf_apply, matmulB_apply, matmulA_apply,
    shapeCast_self, headMul, step, cur, Ideal.ofBits_def, Ideal.ofBits_zero_f32]

/-- The same as an equation of whole blocks. -/
theorem payload_eq (x0 : FVec Ideal S4096x64 .f32) (x1 : FVec Ideal S64x1024 .bf16)
    (x2 x3 x4 : FVec Ideal S1024x1024 .bf16) (x5 : FVec Ideal S1024x10 .bf16) :
    k0_pay1 (F := Ideal) x0 x1 x2 x3 x4 x5
      = uncur (headMul (step (step (step (step (cur x0) (cur x1)) (cur x2)) (cur x3)) (cur x4)) (cur x5)
          (Ideal.ofBits .f32 0x3A800000#32)) :=
  ext_ix2 fun p o => (payload_apply x0 x1 x2 x3 x4 x5 p o).trans (uncur_ix2 _ p o).symm

end Cert.KernelIdeal.Payload

end
-- ==== Proof.FusedWeights.lean ====
/-
  What the kernel's stationary windows hold when the region is entered.

  Before the region the host computes, for each layer, the product `w_l · rp_l` (contracting `w_l`'s second axis
  with `rp_l`'s first), transposes it and changes its float format; `beta` only changes format. At the ideal
  values a change of format is the identity, a transpose read at `(k, h)` is its operand at `(h, k)`, and the
  host's product at `(h, k)` is `∑ j, w h j · rp j k`. So window `l + 1`'s array, read as a function of two
  coordinates, is `fuse rp_l w_l`, and window 5's is `beta`.
-/
import proofs.«111098_j36756330120126_2_alg».proof.Proof.Gen.KernelIdeal.Frame
import proofs.«111098_j36756330120126_2_alg».proof.Proof.LibDenseLayers
import proofs.«111098_j36756330120126_2_alg».proof.Proof.LibCoordinates
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.FusedWeights

open Cert.KernelIdeal Cert.KernelIdeal.Gen Cert.DenseLayers
open Idealize.ShloMosaic Idealize.ShloMosaic.TcCoe Idealize.ShloMosaic.ValueIdx Idealize.ShloMosaic.StableHlo Idealize.SL.Sem

/-! ## The host's two shapes of product, read at an index -/

theorem lhsS_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhsS_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhsS_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhsS_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The host's product `w · rp` of a `[1024, 1024]` by a `[1024, 64]` matrix, at row `h` and column `k`. -/
theorem hostDotS_apply (w : FVec Ideal S1024x1024 .f32) (rp : FVec Ideal S1024x64 .f32) (h : Fin 1024) (k : Fin 64) :
    Host.dotGeneral dot_S1024x1024_S1024x64_S1024x64_1_0_0_1_n_n (some .fp32) w rp (ix2 h k)
      = ∑ j : Fin 1024, w (ix2 h j) * rp (ix2 j k) := by
  simp only [Host.dotGeneral]
  rw [Ideal.dotGeneral_apply, ← Equiv.sum_comp (contrEquiv1 dot_S1024x1024_S1024x64_S1024x64_1_0_0_1_n_n 1024 rfl rfl).symm]
  refine Finset.sum_congr rfl fun j _ => ?_
  have hj := contrEquiv1_symm_val dot_S1024x1024_S1024x64_S1024x64_1_0_0_1_n_n 1024 rfl rfl j
  have el : dot_S1024x1024_S1024x64_S1024x64_1_0_0_1_n_n.lhsIdx (ix2 h k) ((contrEquiv1 dot_S1024x1024_S1024x64_S1024x64_1_0_0_1_n_n 1024 rfl rfl).symm j) = ix2 h j := funext fun e => Fin.ext (by
    match e with
    | ⟨0, _⟩ => exact lhsS_0 _ _
    | ⟨1, _⟩ => exact (lhsS_1 _ _).trans hj)
  have er : dot_S1024x1024_S1024x64_S1024x64_1_0_0_1_n_n.rhsIdx (ix2 h k) ((contrEquiv1 dot_S1024x1024_S1024x64_S1024x64_1_0_0_1_n_n 1024 rfl rfl).symm j) = ix2 j k := funext fun e => Fin.ext (by
    match e with
    | ⟨0, _⟩ => exact (rhsS_0 _ _).trans hj
    | ⟨1, _⟩ => exact rhsS_1 _ _)
  rw [el, er]

theorem lhsL_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhsL_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhsL_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhsL_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The host's product `w · rp` of a `[1024, 1024]` by a `[1024, 1024]` matrix, at row `h` and column `k`. -/
theorem hostDotL_apply (w : FVec Ideal S1024x1024 .f32) (rp : FVec Ideal S1024x1024 .f32) (h : Fin 1024) (k : Fin 1024) :
    Host.dotGeneral dot_S1024x1024_S1024x1024_S1024x1024_1_0_0_1_n_n (some .fp32) w rp (ix2 h k)
      = ∑ j : Fin 1024, w (ix2 h j) * rp (ix2 j k) := by
  simp only [Host.dotGeneral]
  rw [Ideal.dotGeneral_apply, ← Equiv.sum_comp (contrEquiv1 dot_S1024x1024_S1024x1024_S1024x1024_1_0_0_1_n_n 1024 rfl rfl).symm]
  refine Finset.sum_congr rfl fun j _ => ?_
  have hj := contrEquiv1_symm_val dot_S1024x1024_S1024x1024_S1024x1024_1_0_0_1_n_n 1024 rfl rfl j
  have el : dot_S1024x1024_S1024x1024_S1024x1024_1_0_0_1_n_n.lhsIdx (ix2 h k) ((contrEquiv1 dot_S1024x1024_S1024x1024_S1024x1024_1_0_0_1_n_n 1024 rfl rfl).symm j) = ix2 h j := funext fun e => Fin.ext (by
    match e with
    | ⟨0, _⟩ => exact lhsL_0 _ _
    | ⟨1, _⟩ => exact (lhsL_1 _ _).trans hj)
  have er : dot_S1024x1024_S1024x1024_S1024x1024_1_0_0_1_n_n.rhsIdx (ix2 h k) ((contrEquiv1 dot_S1024x1024_S1024x1024_S1024x1024_1_0_0_1_n_n 1024 rfl rfl).symm j) = ix2 j k := funext fun e => Fin.ext (by
    match e with
    | ⟨0, _⟩ => exact (rhsL_0 _ _).trans hj
    | ⟨1, _⟩ => exact rhsL_1 _ _)
  rw [el, er]

/-! ## The windows' arrays at region entry -/

variable (m : (ℓ : Loc nD τ sig) → Buf (Elt Ideal) ℓ)

/-- Window 1's array when the region is entered: the host's product of `main_arg2` and `main_arg1`, transposed. -/
theorem entry_main_v2 (c : Dev nD) :
    V m c main_v2
      = (truncf .bf16 (transpose S64x1024 [1, 0] (Host.dotGeneral (φ₁ := .f32) (φ₂ := .f32) dot_S1024x1024_S1024x64_S1024x64_1_0_0_1_n_n (some .fp32)
          (m ((c : Thread nD τ).loc main_arg2) : FVec Ideal S1024x1024 .f32) (m ((c : Thread nD τ).loc main_arg1) : FVec Ideal S1024x64 .f32))
          Facts₀.transposes_S1024x64_S64x1024_1_0) Facts₀.bitsLt_bf16_f32 : FVec Ideal S64x1024 .bf16) := by
  dsimp only [V, hostOps0]; after_results

/-- … which at `(k, h)` is the fused matrix of `main_arg1` and `main_arg2`. -/
theorem fused_main_v2 (c : Dev nD) :
    cur (V m c main_v2) = fuse (cur (m ((c : Thread nD τ).loc main_arg1))) (cur (m ((c : Thread nD τ).loc main_arg2))) := by
  funext k h
  rw [cur_apply, entry_main_v2, truncf_apply]
  refine (transpose_apply [1, 0] _ Facts₀.transposes_S1024x64_S64x1024_1_0 (ix2 k h) (ix2 h k) ?_).trans ?_
  · intro b
    match b with
    | ⟨0, _⟩ => rfl
    | ⟨1, _⟩ => rfl
  · rw [hostDotS_apply]; rfl

/-- Window 2's array when the region is entered: the host's product of `main_arg4` and `main_arg3`, transposed. -/
theorem entry_main_v5 (c : Dev nD) :
    V m c main_v5
      = (truncf .bf16 (transpose S1024x1024 [1, 0] (Host.dotGeneral (φ₁ := .f32) (φ₂ := .f32) dot_S1024x1024_S1024x1024_S1024x1024_1_0_0_1_n_n (some .fp32)
          (m ((c : Thread nD τ).loc main_arg4) : FVec Ideal S1024x1024 .f32) (m ((c : Thread nD τ).loc main_arg3) : FVec Ideal S1024x1024 .f32))
          Facts₀.transposes_S1024x1024_S1024x1024_1_0) Facts₀.bitsLt_bf16_f32 : FVec Ideal S1024x1024 .bf16) := by
  dsimp only [V, hostOps0]; after_results

/-- … which at `(k, h)` is the fused matrix of `main_arg3` and `main_arg4`. -/
theorem fused_main_v5 (c : Dev nD) :
    cur (V m c main_v5) = fuse (cur (m ((c : Thread nD τ).loc main_arg3))) (cur (m ((c : Thread nD τ).loc main_arg4))) := by
  funext k h
  rw [cur_apply, entry_main_v5, truncf_apply]
  refine (transpose_apply [1, 0] _ Facts₀.transposes_S1024x1024_S1024x1024_1_0 (ix2 k h) (ix2 h k) ?_).trans ?_
  · intro b
    match b with
    | ⟨0, _⟩ => rfl
    | ⟨1, _⟩ => rfl
  · rw [hostDotL_apply]; rfl

/-- Window 3's array when the region is entered: the host's product of `main_arg6` and `main_arg5`, transposed. -/
theorem entry_main_v8 (c : Dev nD) :
    V m c main_v8
      = (truncf .bf16 (transpose S1024x1024 [1, 0] (Host.dotGeneral (φ₁ := .f32) (φ₂ := .f32) dot_S1024x1024_S1024x1024_S1024x1024_1_0_0_1_n_n (some .fp32)
          (m ((c : Thread nD τ).loc main_arg6) : FVec Ideal S1024x1024 .f32) (m ((c : Thread nD τ).loc main_arg5) : FVec Ideal S1024x1024 .f32))
          Facts₀.transposes_S1024x1024_S1024x1024_1_0) Facts₀.bitsLt_bf16_f32 : FVec Ideal S1024x1024 .bf16) := by
  dsimp only [V, hostOps0]; after_results

/-- … which at `(k, h)` is the fused matrix of `main_arg5` and `main_arg6`. -/
theorem fused_main_v8 (c : Dev nD) :
    cur (V m c main_v8) = fuse (cur (m ((c : Thread nD τ).loc main_arg5))) (cur (m ((c : Thread nD τ).loc main_arg6))) := by
  funext k h
  rw [cur_apply, entry_main_v8, truncf_apply]
  refine (transpose_apply [1, 0] _ Facts₀.transposes_S1024x1024_S1024x1024_1_0 (ix2 k h) (ix2 h k) ?_).trans ?_
  · intro b
    match b with
    | ⟨0, _⟩ => rfl
    | ⟨1, _⟩ => rfl
  · rw [hostDotL_apply]; rfl

/-- Window 4's array when the region is entered: the host's product of `main_arg8` and `main_arg7`, transposed. -/
theorem entry_main_v11 (c : Dev nD) :
    V m c main_v11
      = (truncf .bf16 (transpose S1024x1024 [1, 0] (Host.dotGeneral (φ₁ := .f32) (φ₂ := .f32) dot_S1024x1024_S1024x1024_S1024x1024_1_0_0_1_n_n (some .fp32)
          (m ((c : Thread nD τ).loc main_arg8) : FVec Ideal S1024x1024 .f32) (m ((c : Thread nD τ).loc main_arg7) : FVec Ideal S1024x1024 .f32))
          Facts₀.transposes_S1024x1024_S1024x1024_1_0) Facts₀.bitsLt_bf16_f32 : FVec Ideal S1024x1024 .bf16) := by
  dsimp only [V, hostOps0]; after_results

/-- … which at `(k, h)` is the fused matrix of `main_arg7` and `main_arg8`. -/
theorem fused_main_v11 (c : Dev nD) :
    cur (V m c main_v11) = fuse (cur (m ((c : Thread nD τ).loc main_arg7))) (cur (m ((c : Thread nD τ).loc main_arg8))) := by
  funext k h
  rw [cur_apply, entry_main_v11, truncf_apply]
  refine (transpose_apply [1, 0] _ Facts₀.transposes_S1024x1024_S1024x1024_1_0 (ix2 k h) (ix2 h k) ?_).trans ?_
  · intro b
    match b with
    | ⟨0, _⟩ => rfl
    | ⟨1, _⟩ => rfl
  · rw [hostDotL_apply]; rfl

/-- Window 5's array when the region is entered: `main_arg9`, its float format changed. -/
theorem entry_main_v12 (c : Dev nD) :
    V m c main_v12 = (truncf .bf16 (m ((c : Thread nD τ).loc main_arg9) : FVec Ideal S1024x10 .f32) Facts₀.bitsLt_bf16_f32 : FVec Ideal S1024x10 .bf16) := by
  dsimp only [V, hostOps0]; after_results

theorem beta_main_v12 (c : Dev nD) : cur (V m c main_v12) = cur (m ((c : Thread nD τ).loc main_arg9)) := by
  funext k o
  rw [cur_apply, entry_main_v12, truncf_apply]; rfl

end Cert.KernelIdeal.FusedWeights

end
-- ==== Proof.OutputArray.lean ====
/-
  The kernel's output array after the run, as one function of the argument arrays.

  The grid has four points; point `t` stages rows `4096·t … 4096·t + 4095` of `x` (window 0), the whole of
  each fused weight matrix and of `beta` (windows 1–5, whose index maps are constantly zero), and writes back
  rows `4096·t …` of the output (window 6). What it writes is the stored value of Payload.lean at the staged
  blocks. A row of the network's output depends on the same row of `x` only, so the stored block is rows
  `4096·t …` of ONE whole-array function `G`: the fused network of `x`, the fused matrices of FusedWeights.lean
  and `beta`. The four output blocks tile the 16384 rows (row `r` is in the block of point `r / 4096`), so
  after the run the array is `G`.
-/
import proofs.«111098_j36756330120126_2_alg».proof.Proof.Gen.KernelIdeal.Value
import proofs.«111098_j36756330120126_2_alg».proof.Proof.Payload
import proofs.«111098_j36756330120126_2_alg».proof.Proof.FusedWeights

noncomputable section

namespace Cert.KernelIdeal.OutputArray

open Cert.KernelIdeal Cert.KernelIdeal.Gen Cert.DenseLayers Cert.KernelIdeal.Payload Cert.KernelIdeal.FusedWeights
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output array: the fused network of the ten argument arrays, with the kernel's scale `2⁻¹⁰`. -/
def G (c : Dev nD) : S16384x10.Idx → EReal :=
  uncur (netFused (cur (m ((c : Thread nD τ).loc main_arg0))) (cur (m ((c : Thread nD τ).loc main_arg1))) (cur (m ((c : Thread nD τ).loc main_arg2))) (cur (m ((c : Thread nD τ).loc main_arg3))) (cur (m ((c : Thread nD τ).loc main_arg4)))
    (cur (m ((c : Thread nD τ).loc main_arg5))) (cur (m ((c : Thread nD τ).loc main_arg6))) (cur (m ((c : Thread nD τ).loc main_arg7))) (cur (m ((c : Thread nD τ).loc main_arg8))) (cur (m ((c : Thread nD τ).loc main_arg9)))
    (Ideal.ofBits .f32 0x3A800000#32))

/-- Rows `4096·q …` of a 16384-row matrix. -/
def rowsAt {n : ℕ} (X : Fin 16384 → Fin n → EReal) (q : ℕ) (hq : q ≤ 3) : Fin 4096 → Fin n → EReal :=
  fun p k => X ⟨q * 4096 + p.val, by have := p.isLt; omega⟩ k

theorem hz : (![0, 0] : Fin 2 → Nat) = fun _ => 0 := funext fun a => by fin_cases a <;> rfl

/-- The printed index maps over the four points: window 0 moves with the output along the rows, windows 1–5
    stay at block zero, and the output's row-block index is at most 3. -/
theorem idx_facts : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 3 ∧ win0_6.index t (1 : Fin 2) = 0 :=
  (by decide +kernel : ∀ t : Fin grid0.N, _)

theorem idx6_le (t : Fin cfg0.N) : win0_6.index t (0 : Fin 2) ≤ 3 := (idx_facts t).2.2.2.2.2.2.2.2.2.2.2.2.1

/-- Every row block of the output is some point's. -/
theorem idx_onto : ∀ q0 : Fin 4, ∃ t : Fin cfg0.N, win0_6.index t = ![q0.val, 0] :=
  (by decide +kernel : ∀ q0 : Fin 4, ∃ t : Fin grid0.N, win0_6.index t = ![q0.val, 0])

/-! ## The staged blocks -/

/-- Window 0's block at point `t` is rows `4096·(the output's row-block index) …` of `main_arg0`. -/
theorem block0 (c : Dev nD) (t : Fin cfg0.N) :
    cur (iblk m c 0 t) = rowsAt (cur (m ((c : Thread nD τ).loc main_arg0))) (win0_6.index t (0 : Fin 2)) (idx6_le t) := by
  have hf := idx_facts t
  have hq := idx6_le t
  refine (congrArg cur (funext fun j => ?_ : iblk m c 0 t = uncur (rowsAt (cur (m ((c : Thread nD τ).loc main_arg0))) (win0_6.index t (0 : Fin 2)) (idx6_le t)))).trans (cur_uncur _)
  show V m c main_arg0 (((cfg0.win 0).blk t).view.emb j) = _
  have h0 : (j 0).val < 4096 := (j 0).isLt
  have h1 : (j 1).val < 64 := (j 1).isLt
  have he : ((cfg0.win 0).blk t).view.emb j
      = ix2 (⟨win0_6.index t (0 : Fin 2) * 4096 + (j 0).val, by omega⟩ : Fin 16384) (⟨(j 1).val, h1⟩ : Fin 64) := by
    funext a; apply Fin.ext
    match a with
    | ⟨0, _⟩ => show win0_0.index t (0 : Fin 2) * 4096 + 1 * (j 0).val = win0_6.index t (0 : Fin 2) * 4096 + (j 0).val; omega
    | ⟨1, _⟩ => show win0_0.index t (1 : Fin 2) * 64 + 1 * (j 1).val = (j 1).val; omega
  rw [he, V_main_arg0]
  rfl

/-- Window 1's block at every point is its whole array (its index map is constantly zero). -/
theorem block1 (c : Dev nD) (t : Fin cfg0.N) : cur (iblk m c 1 t) = cur (V m c main_v2) := by
  have hf := idx_facts t
  refine congrArg cur (funext fun j => ?_)
  show V m c main_v2 (((cfg0.win 1).blk t).view.emb j) = V m c main_v2 j
  have he : ((cfg0.win 1).blk t).view.emb j = j := by
    funext a; apply Fin.ext
    match a with
    | ⟨0, _⟩ => show win0_1.index t (0 : Fin 2) * 64 + 1 * (j 0).val = (j 0).val; omega
    | ⟨1, _⟩ => show win0_1.index t (1 : Fin 2) * 1024 + 1 * (j 1).val = (j 1).val; omega
  rw [he]

/-- Window 2's block at every point is its whole array (its index map is constantly zero). -/
theorem block2 (c : Dev nD) (t : Fin cfg0.N) : cur (iblk m c 2 t) = cur (V m c main_v5) := by
  have hf := idx_facts t
  refine congrArg cur (funext fun j => ?_)
  show V m c main_v5 (((cfg0.win 2).blk t).view.emb j) = V m c main_v5 j
  have he : ((cfg0.win 2).blk t).view.emb j = j := by
    funext a; apply Fin.ext
    match a with
    | ⟨0, _⟩ => show win0_2.index t (0 : Fin 2) * 1024 + 1 * (j 0).val = (j 0).val; omega
    | ⟨1, _⟩ => show win0_2.index t (1 : Fin 2) * 1024 + 1 * (j 1).val = (j 1).val; omega
  rw [he]

/-- Window 3's block at every point is its whole array (its index map is constantly zero). -/
theorem block3 (c : Dev nD) (t : Fin cfg0.N) : cur (iblk m c 3 t) = cur (V m c main_v8) := by
  have hf := idx_facts t
  refine congrArg cur (funext fun j => ?_)
  show V m c main_v8 (((cfg0.win 3).blk t).view.emb j) = V m c main_v8 j
  have he : ((cfg0.win 3).blk t).view.emb j = j := by
    funext a; apply Fin.ext
    match a with
    | ⟨0, _⟩ => show win0_3.index t (0 : Fin 2) * 1024 + 1 * (j 0).val = (j 0).val; omega
    | ⟨1, _⟩ => show win0_3.index t (1 : Fin 2) * 1024 + 1 * (j 1).val = (j 1).val; omega
  rw [he]

/-- Window 4's block at every point is its whole array (its index map is constantly zero). -/
theorem block4 (c : Dev nD) (t : Fin cfg0.N) : cur (iblk m c 4 t) = cur (V m c main_v11) := by
  have hf := idx_facts t
  refine congrArg cur (funext fun j => ?_)
  show V m c main_v11 (((cfg0.win 4).blk t).view.emb j) = V m c main_v11 j
  have he : ((cfg0.win 4).blk t).view.emb j = j := by
    funext a; apply Fin.ext
    match a with
    | ⟨0, _⟩ => show win0_4.index t (0 : Fin 2) * 1024 + 1 * (j 0).val = (j 0).val; omega
    | ⟨1, _⟩ => show win0_4.index t (1 : Fin 2) * 1024 + 1 * (j 1).val = (j 1).val; omega
  rw [he]

/-- Window 5's block at every point is its whole array (its index map is constantly zero). -/
theorem block5 (c : Dev nD) (t : Fin cfg0.N) : cur (iblk m c 5 t) = cur (V m c main_v12) := by
  have hf := idx_facts t
  refine congrArg cur (funext fun j => ?_)
  show V m c main_v12 (((cfg0.win 5).blk t).view.emb j) = V m c main_v12 j
  have he : ((cfg0.win 5).blk t).view.emb j = j := by
    funext a; apply Fin.ext
    match a with
    | ⟨0, _⟩ => show win0_5.index t (0 : Fin 2) * 1024 + 1 * (j 0).val = (j 0).val; omega
    | ⟨1, _⟩ => show win0_5.index t (1 : Fin 2) * 10 + 1 * (j 1).val = (j 1).val; omega
  rw [he]

/-! ## What a point writes back -/

/-- Point `t` writes back block `t` of `G`. -/
theorem flushed_eq (c : Dev nD) (t : Fin cfg0.N) :
    (dats m 0 c).flushed 6 t = ((cfg0.win 6).blk t).view.read (Elt Ideal) (G m c) := by
  rw [Value.flushed6]
  unfold out0_6
  rw [View.canon_unit_zero hz]
  simp only [View.ld_unit_zero (S := S4096x64) hz, View.ld_unit_zero (S := S64x1024) hz,
    View.ld_unit_zero (S := S1024x1024) hz, View.ld_unit_zero (S := S1024x10) hz]
  rw [payload_eq (iblk m c 0 t) (iblk m c 1 t) (iblk m c 2 t) (iblk m c 3 t) (iblk m c 4 t) (iblk m c 5 t),
    block0 m c t, block1 m c t, block2 m c t, block3 m c t, block4 m c t, block5 m c t,
    fused_main_v2 m c, fused_main_v5 m c, fused_main_v8 m c, fused_main_v11 m c, beta_main_v12 m c]
  have hf := idx_facts t
  have hq := idx6_le t
  funext j
  show uncur _ j = G m c (((cfg0.win 6).blk t).view.emb j)
  have h0 : (j 0).val < 4096 := (j 0).isLt
  have h1 : (j 1).val < 10 := (j 1).isLt
  have he : ((cfg0.win 6).blk t).view.emb j
      = ix2 (⟨win0_6.index t (0 : Fin 2) * 4096 + (j 0).val, by omega⟩ : Fin 16384) (⟨(j 1).val, h1⟩ : Fin 10) := by
    funext a; apply Fin.ext
    match a with
    | ⟨0, _⟩ => show win0_6.index t (0 : Fin 2) * 4096 + 1 * (j 0).val = win0_6.index t (0 : Fin 2) * 4096 + (j 0).val; omega
    | ⟨1, _⟩ => show win0_6.index t (1 : Fin 2) * 10 + 1 * (j 1).val = (j 1).val; omega
  rw [he]
  rfl

/-! ## The cover -/

/-- An index of the array is in point `t`'s block iff each coordinate is in the block's range on its axis. -/
theorem mem_blk (t : Fin cfg0.N) (i : S16384x10.Idx) :
    i ∈ ((cfg0.win 6).blk t).view.set ↔ ∀ a : Fin 2, win0_6.index t a * S4096x10.size a ≤ (i a).val ∧ (i a).val < win0_6.index t a * S4096x10.size a + S4096x10.size a := by
  show i ∈ ((View.whole main_v13).slice (win0_6.rect t)).set ↔ _
  rw [View.set_slice_whole, Rect.mem_set_unit]
  exact Iff.rfl

/-- Every index of the output array is in some point's block: row `r` in that of point `r / 4096`. -/
theorem cover (i : S16384x10.Idx) : ∃ t : Fin cfg0.N, (cfg0.win 6).flush t = true ∧ i ∈ ((cfg0.win 6).blk t).view.set := by
  have hi0 : (i 0).val < 16384 := (i 0).isLt
  have hi1 : (i 1).val < 10 := (i 1).isLt
  obtain ⟨t, ht⟩ := idx_onto ⟨(i 0).val / 4096, by omega⟩
  have q0 : win0_6.index t (0 : Fin 2) = (i 0).val / 4096 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 10 ≤ (i 1).val ∧ (i 1).val < win0_6.index t (1 : Fin 2) * 10 + 10; omega

/-! ## The array after the run, and the run -/

theorem final (c : Dev nD) : (dats m 0 c).arrAt 6 cfg0.N = G m c :=
  (dats m 0 c).arrAt_eq_of_cover 6 (G m c) (fun t _ => flushed_eq m c t) cover

/-- Every weakly fair execution of the kernel's program terminates with the output array at `G` and the
    arguments unchanged. -/
theorem run : θ_run defs (onTc (τ := τ) (main (F := Ideal))) ⟨m, fun _ => 0, ρ⟩ fun r => ∀ c : Dev nD,
      r.2.mem ((c : Thread nD τ).loc main_v13) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.OutputArray

end
-- ==== Proof.lean ====
/-
  A four-layer dense network, fused against layered.

  Both programs compute, for a batch `x` of 16384 rows, four layers `y ↦ max ((y · rp_lᵀ) · w_lᵀ) 0` and a head
  `(y · beta) / 1024`. The reference multiplies by `rp_lᵀ` and then by `w_lᵀ`. The kernel's program first forms,
  on the host, the transpose of `w_l · rp_l` for each layer, and its body then multiplies a block of 4096 rows
  by that one matrix per layer; its head scales by the float `2⁻¹⁰` where the reference divides by `1024`.

  Read at the ideal values, row by row and entry by entry:
  * the kernel's output array after its run is the fused network of the ten argument arrays (OutputArray.lean,
    over the stored value of Payload.lean and the region-entry contents of FusedWeights.lean);
  * the reference's result is the layered network of the same arrays (ReferenceValue.lean);
  * the precondition makes every entry of every argument a real number (FiniteInputs.lean), and on real
    matrices a product with a fused matrix is the two products in turn — distributivity and an exchange of two
    finite sums in ℝ —, a layer of real matrices being real again (LibDenseLayers.lean);
  * `2⁻¹⁰` and `1024` are exact (Constants.lean), and scaling by `1 / 1024` is dividing by `1024` on every
    extended real.
  So the two results are equal, element by element. The three frames are the generated frame runs (the
  reference's is its run with the result dropped), and the idealization rewrote nothing, so `preserves` is `True`.
-/
import proofs.«111098_j36756330120126_2_alg».proof.Defs
import proofs.«111098_j36756330120126_2_alg».proof.Proof.Gen.Kernel
import proofs.«111098_j36756330120126_2_alg».proof.Proof.Gen.Kernel.Skeleton
import proofs.«111098_j36756330120126_2_alg».proof.Proof.Gen.Kernel.Launch
import proofs.«111098_j36756330120126_2_alg».proof.Proof.Gen.Kernel.Points
import proofs.«111098_j36756330120126_2_alg».proof.Proof.Gen.Kernel.Frame
import proofs.«111098_j36756330120126_2_alg».proof.Proof.Gen.KernelIdeal
import proofs.«111098_j36756330120126_2_alg».proof.Proof.Gen.KernelIdeal.Skeleton
import proofs.«111098_j36756330120126_2_alg».proof.Proof.Gen.KernelIdeal.Launch
import proofs.«111098_j36756330120126_2_alg».proof.Proof.Gen.KernelIdeal.Points
import proofs.«111098_j36756330120126_2_alg».proof.Proof.Gen.KernelIdeal.Frame
import proofs.«111098_j36756330120126_2_alg».proof.Proof.Gen.ReferenceIdeal
import proofs.«111098_j36756330120126_2_alg».proof.Proof.Gen.Pre_finite_inputs
import proofs.«111098_j36756330120126_2_alg».proof.Proof.Gen.KernelIdeal.Value
import proofs.«111098_j36756330120126_2_alg».proof.Proof.Gen.ReferenceIdeal.Run
import proofs.«111098_j36756330120126_2_alg».proof.Proof.Gen.ReferenceIdeal.Read
import proofs.«111098_j36756330120126_2_alg».proof.Proof.LibDenseLayers
import proofs.«111098_j36756330120126_2_alg».proof.Proof.LibCoordinates
import proofs.«111098_j36756330120126_2_alg».proof.Proof.Constants
import proofs.«111098_j36756330120126_2_alg».proof.Proof.FiniteInputs
import proofs.«111098_j36756330120126_2_alg».proof.Proof.ReferenceValue
import proofs.«111098_j36756330120126_2_alg».proof.Proof.OutputArray
import Idealize.ShloMosaic.Adequacy
import Idealize.ShloMosaic.Init

noncomputable section

namespace Cert.Proof

open Idealize.ShloMosaic Idealize.ShloMosaic.TcCoe Idealize.ShloMosaic.ValueIdx Idealize.SL.Sem Cert.DenseLayers

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- An array all of whose entries are neither infinity is, as a function of two coordinates, a real matrix. -/
theorem real2_cur {a b : ℕ} (x : (⟨2, ![a, b]⟩ : Shape).Idx → EReal) (h : ∀ i, x i ≠ ⊤ ∧ x i ≠ ⊥) : Real2 (cur x) :=
  real2_of_ne (cur x) fun p q => h (ix2 p q)

/-- The kernel's output array (the fused network) and the reference's result (the layered network) of
    arguments that agree and are finite: one array. -/
theorem algebraic : Cert.algebraic_KernelIdeal_ReferenceIdeal := by
  intro m ρ m' ρ' hpre hagree
  refine ⟨fun c => Cert.KernelIdeal.OutputArray.G m c, Cert.KernelIdeal.OutputArray.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, f4, f5, f6, f7, f8, f9⟩ :=
    Cert.Pre_finite_inputs.Finite.real_of_pre _ _ _ _ _ _ _ _ _ _ (hpre c)
  rw [(hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2]
  refine (Cert.ReferenceIdeal.Read.val_main_v14_eq _ _ _ _ _ _ _ _ _ _).trans ?_
  refine (Cert.ReferenceIdeal.RefValue.result_eq _ _ _ _ _ _ _ _ _ _).trans ?_
  unfold Cert.KernelIdeal.OutputArray.G
  rw [Constants.ofBits_1024, Constants.ofBits_inv_1024]
  exact congrArg uncur (netFused_eq_netLayers _ (by norm_num) (real2_cur _ f0) (real2_cur _ f1) (real2_cur _ f2)
    (real2_cur _ f3) (real2_cur _ f4) (real2_cur _ f5) (real2_cur _ f6) (real2_cur _ f7) (real2_cur _ f8)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
